-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_

variable [Facts]

def fn {F : FTy → Type} [FloatOps F] (main_arg0 : FVec F S10000x128 .f32) (main_arg1 : FVec F S10000x10000 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  main_v8
-- ==== Kernel.lean ====
abbrev S10000x128 : Shape := ⟨2, ![10000, 128]⟩
abbrev S10000x10000 : Shape := ⟨2, ![10000, 10000]⟩
abbrev S400x10000 : Shape := ⟨2, ![400, 10000]⟩
abbrev S400x128 : Shape := ⟨2, ![400, 128]⟩

abbrev nBuf : Space → Nat
  | .hbm => 5
  | .vmem => 12
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S10000x128, .bf16⟩
  | .hbm, ⟨3, _⟩ => ⟨S10000x128, .bf16⟩
  | .hbm, ⟨4, _⟩ => ⟨S10000x128, .f32⟩
  | .local _ .vmem, ⟨0, _⟩ => ⟨S400x10000, .f32⟩
  | .local _ .vmem, ⟨1, _⟩ => ⟨S400x10000, .f32⟩
  | .local _ .vmem, ⟨2, _⟩ => ⟨S10000x128, .bf16⟩
  | .local _ .vmem, ⟨3, _⟩ => ⟨S400x128, .f32⟩
  | .local _ .vmem, ⟨4, _⟩ => ⟨S400x128, .f32⟩
  | .local _ .vmem, ⟨5, _⟩ => ⟨S400x128, .bf16⟩
  | .local _ .vmem, ⟨6, _⟩ => ⟨S400x128, .bf16⟩
  | .local _ .vmem, ⟨7, _⟩ => ⟨S400x10000, .f32⟩
  | .local _ .vmem, ⟨8, _⟩ => ⟨S400x10000, .f32⟩
  | .local _ .vmem, ⟨9, _⟩ => ⟨S10000x128, .bf16⟩
  | .local _ .vmem, ⟨10, _⟩ => ⟨S400x128, .f32⟩
  | .local _ .vmem, ⟨11, _⟩ => ⟨S400x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S400x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S400x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S400x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  bitsLt_bf16_f32 : FTy.bits .bf16 < FTy.bits .f32
  inb_S400x10000_S400x10000_0_0 : ∀ a, (![0, 0] : Fin 2 → Nat) a + S400x10000.size a ≤ S400x10000.size a
  h_S400x10000 : 0 < S400x10000.numel
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S400x128_S400x128_0_0 : ∀ a, (![0, 0] : Fin 2 → Nat) a + S400x128.size a ≤ S400x128.size a
  h_S400x128 : 0 < S400x128.numel
  packedbf16_S400x128_S400x128_0_0 : (Rect.unit (s := S400x128) ![0, 0] S400x128.size inb_S400x128_S400x128_0_0).PackedRows (EltTy.packing .bf16)
  dot_S400x10000_S10000x128_S400x128_1_0_0_1_n_n_wf : DotDims.WF S400x10000 S10000x128 S400x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x10000.size a ≤ S10000x10000.size a
  hwx0_0 : ∀ i : grid0.Coords, EltTy.bits .f32 = 32 ∨ (Rect.block (s := S10000x10000) S400x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S10000x128.size a
  hwx0_1 : ∀ i : grid0.Coords, EltTy.bits .bf16 = 32 ∨ (Rect.block (s := S10000x128) S10000x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S400x128.size a ≤ S10000x128.size a
  hwx0_2 : ∀ i : grid0.Coords, EltTy.bits .f32 = 32 ∨ (Rect.block (s := S10000x128) S400x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S400x128.size a ≤ S10000x128.size a
  hwx0_3 : ∀ i : grid0.Coords, EltTy.bits .bf16 = 32 ∨ (Rect.block (s := S10000x128) S400x128.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x10000.size a ≤ S10000x10000.size a
  hwx1_0 : ∀ i : grid1.Coords, EltTy.bits .f32 = 32 ∨ (Rect.block (s := S10000x10000) S400x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S10000x128.size a
  hwx1_1 : ∀ i : grid1.Coords, EltTy.bits .bf16 = 32 ∨ (Rect.block (s := S10000x128) S10000x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S400x128.size a ≤ S10000x128.size a
  hwx1_2 : ∀ i : grid1.Coords, EltTy.bits .f32 = 32 ∨ (Rect.block (s := S10000x128) S400x128.size (cc1_transform_2 i) (hinb1_2 i)).WholeWords (EltTy.packing .f32)

variable [Facts₀]

def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf

abbrev win0_0 : Pipeline.Window sig grid0 :=
  Pipeline.Window.ofSpec (Memref.whole main_arg1) S400x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S10000x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S400x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S400x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S400x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S10000x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2) S400x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S10000x128 : Shape := ⟨2, ![10000, 128]⟩
abbrev S10000x10000 : Shape := ⟨2, ![10000, 10000]⟩

abbrev nBuf : Space → Nat
  | .hbm => 5
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S10000x128, .f32⟩
  | .hbm, ⟨3, _⟩ => ⟨S10000x128, .f32⟩
  | .hbm, ⟨4, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]

class Facts₀ : Prop where
  dot_S10000x10000_S10000x128_S10000x128_1_0_0_1_n_n_wf : DotDims.WF S10000x10000 S10000x128 S10000x128 [1] [0] [0] [1] [] []

variable [Facts₀]

def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.Spec.lean ====
/-
  The mathematics of this certificate, stated with no program in sight.

  A is a square matrix of 10000 rows and columns, v and x are tall matrices of 10000 rows and 128 columns, all over
  the extended reals. One hop multiplies by A:

      (A · v)[r, q] = Σ_{k < 10000} A[r, k] · v[k, q].

  A mixing step is a hop followed by adding a matrix back in, A · w + x, and the aggregation of depth two is

      A · (A · x + x),

  a mixing step on x followed by one more hop. Both programs compute exactly this term: the entries are read in the same
  order, every sum runs over the same index k, and no law of arithmetic (not even reassociation) is used to compare
  them, so nothing here needs the entries to be finite.
-/
import Idealize.ShloMosaic.PureOps.Ideal
import Idealize.ShloMosaic.Lib.ValueIdx

noncomputable section

namespace Cert.Aggr

open Idealize.ShloMosaic Idealize.ShloMosaic.ValueIdx

/-- The square matrix's shape. -/
abbrev SA : Shape := ⟨2, ![10000, 10000]⟩
/-- The tall matrices' shape. -/
abbrev SX : Shape := ⟨2, ![10000, 128]⟩

/-- Row r of A against column q of v: the inner product over the 10000 shared positions. -/
def rowDot (A : SA.Idx → EReal) (v : SX.Idx → EReal) (r : Fin 10000) (q : Fin 128) : EReal :=
  ∑ k : Fin 10000, A (ix2 r k) * v (ix2 k q)

/-- One hop: the product A · v, entry by entry. -/
def hop (A : SA.Idx → EReal) (v : SX.Idx → EReal) : SX.Idx → EReal :=
  fun i => rowDot A v ⟨(i 0).val, idx2_lt0 i⟩ ⟨(i 1).val, idx2_lt1 i⟩

/-- A mixing step: a hop on w, with x added back entry by entry, A · w + x. -/
def mix (A : SA.Idx → EReal) (w x : SX.Idx → EReal) : SX.Idx → EReal :=
  fun i => hop A w i + x i

/-- The aggregation of depth two: A · (A · x + x). -/
def twoHops (A : SA.Idx → EReal) (x : SX.Idx → EReal) : SX.Idx → EReal :=
  hop A (mix A x x)

/-- A hop at the entry (r, q) is the inner product of row r with column q. -/
theorem hop_ix2 (A : SA.Idx → EReal) (v : SX.Idx → EReal) (r : Fin 10000) (q : Fin 128) :
    hop A v (ix2 r q) = rowDot A v r q := rfl

/-- A mixing step at the entry (r, q). -/
theorem mix_ix2 (A : SA.Idx → EReal) (w x : SX.Idx → EReal) (r : Fin 10000) (q : Fin 128) :
    mix A w x (ix2 r q) = rowDot A w r q + x (ix2 r q) := rfl

/-- A hop at any index i, its two coordinates named. -/
theorem hop_at (A : SA.Idx → EReal) (v : SX.Idx → EReal) (i : SX.Idx) :
    hop A v i = ∑ k : Fin 10000, A (ix2 ⟨(i 0).val, idx2_lt0 i⟩ k) * v (ix2 k ⟨(i 1).val, idx2_lt1 i⟩) := rfl

/-- A mixing step at any index i. -/
theorem mix_at (A : SA.Idx → EReal) (w x : SX.Idx → EReal) (i : SX.Idx) :
    mix A w x i
      = (∑ k : Fin 10000, A (ix2 ⟨(i 0).val, idx2_lt0 i⟩ k) * w (ix2 k ⟨(i 1).val, idx2_lt1 i⟩)) + x i := rfl

end Cert.Aggr

end
-- ==== Proof.RefValue.lean ====
/-
  The reference program's result is the aggregation of depth two.

  The reference multiplies A by x on the host, adds x, and multiplies by A once more. Read at an entry (r, q), each host
  product is the sum over k of A[r, k] times the other operand's [k, q], so the result's entry is

      Σ_k A[r, k] · ((Σ_j A[k, j] · x[j, q]) + x[k, q]),

  which is the specification's term, sum for sum.
-/
import proofs.«117549_g16604343566779_cont_sun_m_776_4_alg».proof.Proof.Gen.ReferenceIdeal.Read
import proofs.«117549_g16604343566779_cont_sun_m_776_4_alg».proof.Proof.Spec

noncomputable section

namespace Cert.ReferenceIdeal.RefValue

open Cert.ReferenceIdeal Cert.ReferenceIdeal.Read Idealize.ShloMosaic Idealize.ShloMosaic.ValueIdx Cert.Aggr

/-- The left operand of the first product is read at (row of the entry, k). -/
theorem lidx0_eq (r : Fin 10000) (q : Fin 128) (k : Fin 10000) : lidx_main_v0 (ix2 r q) k = ix2 r k :=
  funext fun a => by match a with | ⟨0, _⟩ => rfl | ⟨1, _⟩ => rfl

/-- The right operand of the first product is read at (k, column of the entry). -/
theorem ridx0_eq (r : Fin 10000) (q : Fin 128) (k : Fin 10000) : ridx_main_v0 (ix2 r q) k = ix2 k q :=
  funext fun a => by match a with | ⟨0, _⟩ => rfl | ⟨1, _⟩ => rfl

/-- The left operand of the second product is read at (row of the entry, k). -/
theorem lidx2_eq (r : Fin 10000) (q : Fin 128) (k : Fin 10000) : lidx_main_v2 (ix2 r q) k = ix2 r k :=
  funext fun a => by match a with | ⟨0, _⟩ => rfl | ⟨1, _⟩ => rfl

/-- The right operand of the second product is read at (k, column of the entry). -/
theorem ridx2_eq (r : Fin 10000) (q : Fin 128) (k : Fin 10000) : ridx_main_v2 (ix2 r q) k = ix2 k q :=
  funext fun a => by match a with | ⟨0, _⟩ => rfl | ⟨1, _⟩ => rfl

/-- The reference's last stage, as a function of the two arguments, is A · (A · x + x). -/
theorem ref_eq (x : SX.Idx → EReal) (A : SA.Idx → EReal) : val_main_v2 (F := Ideal) x A = twoHops A x := by
  funext i
  obtain ⟨r, q, rfl⟩ : ∃ (r : Fin 10000) (q : Fin 128), i = ix2 r q := ⟨i 0, i 1, eq_ix2 i⟩
  rw [val_main_v2_apply]
  unfold twoHops
  rw [hop_ix2]
  unfold rowDot
  refine Finset.sum_congr rfl fun k _ => ?_
  rw [lidx2_eq, ridx2_eq, val_main_v1_apply, val_main_v0_apply, mix_ix2]
  unfold rowDot
  simp only [lidx0_eq, ridx0_eq, Ideal.addf_def]

end Cert.ReferenceIdeal.RefValue

end
-- ==== Proof.LibMatmulNN.lean ====
/-
  A reusable lemma: a matrix product on the matrix unit, read at an entry.

  A `tpu.matmul` of an [M, K] operand by a [K, N] operand — contracting axis 1 of the left with axis 0 of the right, no
  batch axes — accumulated into the zero splat, read over the extended reals at the output entry (p, q), is the inner
  product of row p of the left operand with column q of the right one:

      (L · R)[p, q] = Σ_{k < K} L[p, k] · R[k, q].

  Generic in the extents M, K, N and in the operands' float formats; the dimension record may be any one that equals the
  plain M×K by K×N record (a printed program's own record does, by unfolding).
-/
import Idealize.ShloMosaic.PureOps.Ideal.Laws
import Idealize.ShloMosaic.Lib.ValueIdx

noncomputable section

namespace Cert.MatmulNN

open Idealize.ShloMosaic Idealize.ShloMosaic.ValueIdx

variable {M K N : Nat} {φ₁ φ₂ : FTy}

/-- The left operand's index at output (p, q) and contraction position k is (p, k). -/
theorem lhsIdx_plain (p : Fin M) (q : Fin N) (k : Fin K) :
    (DotDims.plain M K N).lhsIdx (ix2 p q) ((contrEquiv1 (DotDims.plain M K N) K rfl rfl).symm k) = ix2 p k :=
  funext fun a => Fin.ext (by
    match a with
    | ⟨0, _⟩ => rfl
    | ⟨1, _⟩ =>
      exact ((DotDims.plain M K N).lhsIdx_val_of_single rfl (ix2 p q) _).trans
        (contrEquiv1_symm_val (DotDims.plain M K N) K rfl rfl k))

/-- The right operand's index at output (p, q) and contraction position k is (k, q). -/
theorem rhsIdx_plain (p : Fin M) (q : Fin N) (k : Fin K) :
    (DotDims.plain M K N).rhsIdx (ix2 p q) ((contrEquiv1 (DotDims.plain M K N) K rfl rfl).symm k) = ix2 k q :=
  funext fun a => Fin.ext (by
    match a with
    | ⟨0, _⟩ =>
      exact ((DotDims.plain M K N).rhsIdx_val_of_single rfl (ix2 p q) _).trans
        (contrEquiv1_symm_val (DotDims.plain M K N) K rfl rfl k)
    | ⟨1, _⟩ => rfl)

/-- A matrix product into zeros, at entry (p, q): the inner product of row p with column q. -/
theorem matmul_zero_apply (D : DotDims ⟨2, ![M, K]⟩ ⟨2, ![K, N]⟩ ⟨2, ![M, N]⟩) (hD : D = DotDims.plain M K N)
    (prec : Option ContractPrecision) (lhs : FVec Ideal ⟨2, ![M, K]⟩ φ₁) (rhs : FVec Ideal ⟨2, ![K, N]⟩ φ₂)
    (p : Fin M) (q : Fin N) :
    FloatOps.matmul D prec lhs rhs (constant (F := Ideal) ⟨2, ![M, N]⟩ .f32 0x00000000#32) (ix2 p q)
      = ∑ k : Fin K, lhs (ix2 p k) * rhs (ix2 k q) := by
  subst hD
  rw [Ideal.matmul_constant_zero_apply, ← Equiv.sum_comp (contrEquiv1 (DotDims.plain M K N) K rfl rfl).symm]
  refine Finset.sum_congr rfl fun k _ => ?_
  rw [lhsIdx_plain, rhsIdx_plain]

end Cert.MatmulNN

end
-- ==== Proof.Body.lean ====
/-
  What the two kernel bodies store, read at an entry of the block.

  Both bodies load a block of 400 rows of A (all 10000 columns) and the whole tall operand (10000 × 128), and multiply
  them on the matrix unit into a zero accumulator; over the extended reals a change of float format is the identity, so
  at the block's entry (p, q) the product is Σ_k a[p, k] · w[k, q]. The first body then adds its third block entry by
  entry; the second stores the product as it is.
-/
import proofs.«117549_g16604343566779_cont_sun_m_776_4_alg».proof.Proof.Gen.KernelIdeal.Skeleton
import proofs.«117549_g16604343566779_cont_sun_m_776_4_alg».proof.Proof.LibMatmulNN
import Idealize.ShloMosaic.Lib.Pipeline.Value
import Idealize.ShloMosaic.Lib.ValueIdx

noncomputable section

namespace Cert.KernelIdeal.Body

open Cert.KernelIdeal Cert.KernelIdeal.Gen Idealize.ShloMosaic Idealize.ShloMosaic.ValueIdx

/-- The first body's stored value at (p, q): row p of the A block against column q of the tall operand, plus the
    third block's entry. -/
theorem pass1_apply (a : Vec Ideal S400x10000 .f32) (w : Vec Ideal S10000x128 .bf16) (b : Vec Ideal S400x128 .f32)
    (p : Fin 400) (q : Fin 128) :
    k0_pay1 (F := Ideal) a w b (ix2 p q) = (∑ k : Fin 10000, a (ix2 p k) * w (ix2 k q)) + b (ix2 p q) := by
  unfold k0_pay1
  rw [truncf_apply, addf_apply, shapeCast_self]
  refine congrArg (· + b (ix2 p q)) ?_
  refine (Cert.MatmulNN.matmul_zero_apply _ rfl none (truncf .bf16 a bitsLt_bf16_f32) w p q).trans ?_
  exact Finset.sum_congr rfl fun k _ => rfl

/-- The second body's stored value at (p, q): row p of the A block against column q of the tall operand. -/
theorem pass2_apply (a : Vec Ideal S400x10000 .f32) (w : Vec Ideal S10000x128 .bf16) (p : Fin 400) (q : Fin 128) :
    k1_pay1 (F := Ideal) a w (ix2 p q) = ∑ k : Fin 10000, a (ix2 p k) * w (ix2 k q) := by
  unfold k1_pay1
  rw [shapeCast_self]
  refine (Cert.MatmulNN.matmul_zero_apply _ rfl none (truncf .bf16 a bitsLt_bf16_f32) w p q).trans ?_
  exact Finset.sum_congr rfl fun k _ => rfl

/-- The same at any index j of the block, its two coordinates named. -/
theorem pass1_at (a : Vec Ideal S400x10000 .f32) (w : Vec Ideal S10000x128 .bf16) (b : Vec Ideal S400x128 .f32)
    (j : S400x128.Idx) :
    k0_pay1 (F := Ideal) a w b j
      = (∑ k : Fin 10000, a (ix2 ⟨(j 0).val, idx2_lt0 j⟩ k) * w (ix2 k ⟨(j 1).val, idx2_lt1 j⟩)) + b j := by
  obtain ⟨p, q, rfl⟩ : ∃ (p : Fin 400) (q : Fin 128), j = ix2 p q := ⟨j 0, j 1, eq_ix2 j⟩
  exact pass1_apply a w b p q

/-- The same at any index j of the block, its two coordinates named. -/
theorem pass2_at (a : Vec Ideal S400x10000 .f32) (w : Vec Ideal S10000x128 .bf16) (j : S400x128.Idx) :
    k1_pay1 (F := Ideal) a w j
      = ∑ k : Fin 10000, a (ix2 ⟨(j 0).val, idx2_lt0 j⟩ k) * w (ix2 k ⟨(j 1).val, idx2_lt1 j⟩) := by
  obtain ⟨p, q, rfl⟩ : ∃ (p : Fin 400) (q : Fin 128), j = ix2 p q := ⟨j 0, j 1, eq_ix2 j⟩
  exact pass2_apply a w p q

end Cert.KernelIdeal.Body

end
-- ==== Proof.Region0.lean ====
/-
  The first pass: what its output array holds after the grid has run.

  The grid has 25 points. At point t the pass reads rows 400·t … 400·t + 399 of A (all columns), the whole tall
  operand w, and the same 400 rows of x, and writes rows 400·t … 400·t + 399 of its output. By the body's arithmetic the
  entry (p, q) of that block is Σ_k A[400·t + p, k] · w[k, q] + x[400·t + p, q], which is the entry (400·t + p, q) of
  the mixing step A · w + x. The 25 blocks tile the 10000 rows (row r lies in block r / 400), so the whole output array
  ends as A · w + x of the arrays the pass found on entry.
-/
import proofs.«117549_g16604343566779_cont_sun_m_776_4_alg».proof.Proof.Gen.KernelIdeal.Frame
import proofs.«117549_g16604343566779_cont_sun_m_776_4_alg».proof.Proof.Body
import proofs.«117549_g16604343566779_cont_sun_m_776_4_alg».proof.Proof.Spec
import Idealize.ShloMosaic.Lib.Pipeline.Value

noncomputable section

namespace Cert.KernelIdeal.Region0

open Cert.KernelIdeal Cert.KernelIdeal.Gen Idealize.ShloMosaic Idealize.ShloMosaic.TcCoe Idealize.SL.Sem
open Idealize.ShloMosaic.ValueIdx Cert.Aggr
open Idealize.ShloMosaic.Pipeline (Dat)

-- the arrays as the pass finds them
variable (V : (c : Dev nD) → (b : Ref sig .tc) → Buf (Elt Ideal) ((c : Thread nD τ).loc b))

theorem hz : (![0, 0] : Fin 2 → Nat) = fun _ => 0 := funext fun a => by fin_cases a <;> rfl

/-- Where each window's block sits at point t: the row blocks of A, of x and of the output at block row t, the tall
    operand whole. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- The block of A at point t, at (p, k), is A at (400·t + p, k). -/
theorem blockA (c : Dev nD) (t : Fin cfg0.N) (p : Fin 400) (k : Fin 10000) (r : Fin 10000)
    (hr : r.val = t.val * 400 + p.val) :
    iblk0 V c 0 t (ix2 p k) = (V c main_arg1 : SA.Idx → EReal) (ix2 r k) := by
  obtain ⟨e0, e1, -⟩ := idx_facts t
  unfold iblk0
  show (V c main_arg1 : SA.Idx → EReal) (((cfg0.win 0).blk t).view.emb (ix2 p k)) = _
  refine congrArg (V c main_arg1 : SA.Idx → EReal) ?_
  funext a
  apply Fin.ext
  match a with
  | ⟨0, _⟩ => show win0_0.index t (0 : Fin 2) * 400 + 1 * p.val = r.val; omega
  | ⟨1, _⟩ => show win0_0.index t (1 : Fin 2) * 10000 + 1 * k.val = k.val; omega

/-- The tall operand's block at any point is the whole operand. -/
theorem blockW (c : Dev nD) (t : Fin cfg0.N) (k : Fin 10000) (q : Fin 128) :
    iblk0 V c 1 t (ix2 k q) = (V c main_v0 : SX.Idx → EReal) (ix2 k q) := by
  obtain ⟨-, -, e2, e3, -⟩ := idx_facts t
  unfold iblk0
  show (V c main_v0 : SX.Idx → EReal) (((cfg0.win 1).blk t).view.emb (ix2 k q)) = _
  refine congrArg (V c main_v0 : SX.Idx → EReal) ?_
  funext a
  apply Fin.ext
  match a with
  | ⟨0, _⟩ => show win0_1.index t (0 : Fin 2) * 10000 + 1 * k.val = k.val; omega
  | ⟨1, _⟩ => show win0_1.index t (1 : Fin 2) * 128 + 1 * q.val = q.val; omega

/-- The block of x at point t, at an index y, is x at the index i with the row shifted by 400·t. -/
theorem blockX (c : Dev nD) (t : Fin cfg0.N) (y : S400x128.Idx) (i : SX.Idx)
    (h0 : (i 0).val = t.val * 400 + (y 0).val) (h1 : (i 1).val = (y 1).val) :
    iblk0 V c 2 t y = (V c main_arg0 : SX.Idx → EReal) i := by
  obtain ⟨-, -, -, -, e4, e5, -⟩ := idx_facts t
  unfold iblk0
  show (V c main_arg0 : SX.Idx → EReal) (((cfg0.win 2).blk t).view.emb y) = _
  refine congrArg (V c main_arg0 : SX.Idx → EReal) ?_
  funext a
  apply Fin.ext
  match a with
  | ⟨0, _⟩ => show win0_2.index t (0 : Fin 2) * 400 + 1 * (y 0).val = (i 0).val; omega
  | ⟨1, _⟩ => show win0_2.index t (1 : Fin 2) * 128 + 1 * (y 1).val = (i 1).val; omega

/-- What point t writes back is block t of A · w + x of the entry arrays. -/
theorem flushed_eq (c : Dev nD) (t : Fin cfg0.N) :
    (dat0 V c).flushed 3 t
      = ((cfg0.win 3).blk t).view.read (Elt Ideal) (mix (V c main_arg1) (V c main_v0) (V c main_arg0)) := by
  show (cfg0.win 3).cut (grid0.coords t) ((dat0 V c).after 3 t) = _
  rw [after0_3]
  unfold out0_3
  rw [View.canon_unit_zero hz]
  simp only [View.ld_unit_zero (S := S400x10000) hz, View.ld_unit_zero (S := S10000x128) hz,
    View.ld_unit_zero (S := S400x128) hz]
  obtain ⟨-, -, -, -, -, -, e6, e7⟩ := idx_facts t
  funext j
  refine (Body.pass1_at _ _ _ _).trans ?_
  show _ = mix (V c main_arg1) (V c main_v0) (V c main_arg0) (((cfg0.win 3).blk t).view.emb j)
  have r0 : ((((cfg0.win 3).blk t).view.emb j) 0).val = t.val * 400 + (j 0).val := by
    show win0_3.index t (0 : Fin 2) * 400 + 1 * (j 0).val = _; omega
  have r1 : ((((cfg0.win 3).blk t).view.emb j) 1).val = (j 1).val := by
    show win0_3.index t (1 : Fin 2) * 128 + 1 * (j 1).val = _; omega
  refine Eq.trans ?_ (mix_at _ _ _ _).symm
  refine congrArg₂ (· + ·) (Finset.sum_congr rfl fun k _ => congrArg₂ (· * ·) ?_ ?_) ?_
  · exact blockA V c t _ k _ r0
  · refine (blockW V c t k _).trans (congrArg (V c main_v0 : SX.Idx → EReal) ?_)
    funext a
    apply Fin.ext
    match a with
    | ⟨0, _⟩ => rfl
    | ⟨1, _⟩ => exact r1.symm
  · exact blockX V c t _ _ r0 r1

/-- An index of the output array is in point t's block iff each coordinate is in the block's range. -/
theorem mem_blk (t : Fin cfg0.N) (i : S10000x128.Idx) :
    i ∈ ((cfg0.win 3).blk t).view.set ↔ ∀ a : Fin 2, win0_3.index t a * S400x128.size a ≤ (i a).val
      ∧ (i a).val < win0_3.index t a * S400x128.size a + S400x128.size a := by
  show i ∈ ((View.whole main_v1).slice (win0_3.rect t)).set ↔ _
  rw [View.set_slice_whole, Rect.mem_set_unit]
  exact Iff.rfl

/-- Every row lies in some point's block: row r in block r / 400. -/
theorem cover (i : S10000x128.Idx) :
    ∃ t : Fin cfg0.N, (cfg0.win 3).flush t = true ∧ i ∈ ((cfg0.win 3).blk t).view.set := by
  have hi0 : (i 0).val < 10000 := (i 0).isLt
  have hi1 : (i 1).val < 128 := (i 1).isLt
  obtain ⟨t, ht⟩ : ∃ t : Fin cfg0.N, t.val = (i 0).val / 400 :=
    ⟨⟨(i 0).val / 400, by show _ < grid0.N; rw [N_0]; omega⟩, rfl⟩
  obtain ⟨-, -, -, -, -, -, e6, e7⟩ := idx_facts t
  refine ⟨t, flush0_3 t, ?_⟩
  rw [mem_blk]
  intro a
  match a with
  | ⟨0, _⟩ =>
    show win0_3.index t (0 : Fin 2) * 400 ≤ (i 0).val ∧ (i 0).val < win0_3.index t (0 : Fin 2) * 400 + 400
    omega
  | ⟨1, _⟩ =>
    show win0_3.index t (1 : Fin 2) * 128 ≤ (i 1).val ∧ (i 1).val < win0_3.index t (1 : Fin 2) * 128 + 128
    omega

/-- The output array after the pass: A · w + x of the arrays found on entry. -/
theorem final (c : Dev nD) :
    (dat0 V c).arrAt 3 cfg0.N = mix (V c main_arg1) (V c main_v0) (V c main_arg0) :=
  (dat0 V c).arrAt_eq_of_cover 3 (mix (V c main_arg1) (V c main_v0) (V c main_arg0))
    (fun t _ => flushed_eq V c t) cover

end Cert.KernelIdeal.Region0

end
-- ==== Proof.Region1.lean ====
/-
  The second pass: what its output array holds after the grid has run.

  Again 25 points. At point t the pass reads rows 400·t … 400·t + 399 of A and the whole tall operand w, and writes
  rows 400·t … 400·t + 399 of its output; the entry (p, q) of that block is Σ_k A[400·t + p, k] · w[k, q], the entry
  (400·t + p, q) of the hop A · w. The blocks tile the rows, so the output array ends as A · w of the arrays the pass
  found on entry.
-/
import proofs.«117549_g16604343566779_cont_sun_m_776_4_alg».proof.Proof.Gen.KernelIdeal.Frame
import proofs.«117549_g16604343566779_cont_sun_m_776_4_alg».proof.Proof.Body
import proofs.«117549_g16604343566779_cont_sun_m_776_4_alg».proof.Proof.Spec
import Idealize.ShloMosaic.Lib.Pipeline.Value

noncomputable section

namespace Cert.KernelIdeal.Region1

open Cert.KernelIdeal Cert.KernelIdeal.Gen Idealize.ShloMosaic Idealize.ShloMosaic.TcCoe Idealize.SL.Sem
open Idealize.ShloMosaic.ValueIdx Cert.Aggr
open Idealize.ShloMosaic.Pipeline (Dat)

-- the arrays as the pass finds them
variable (V : (c : Dev nD) → (b : Ref sig .tc) → Buf (Elt Ideal) ((c : Thread nD τ).loc b))

theorem hz : (![0, 0] : Fin 2 → Nat) = fun _ => 0 := funext fun a => by fin_cases a <;> rfl

/-- Where each window's block sits at point t: the row blocks of A and of the output at block row t, the tall operand
    whole. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The block of A at point t, at (p, k), is A at (400·t + p, k). -/
theorem blockA (c : Dev nD) (t : Fin cfg1.N) (p : Fin 400) (k : Fin 10000) (r : Fin 10000)
    (hr : r.val = t.val * 400 + p.val) :
    iblk1 V c 0 t (ix2 p k) = (V c main_arg1 : SA.Idx → EReal) (ix2 r k) := by
  obtain ⟨e0, e1, -⟩ := idx_facts t
  unfold iblk1
  show (V c main_arg1 : SA.Idx → EReal) (((cfg1.win 0).blk t).view.emb (ix2 p k)) = _
  refine congrArg (V c main_arg1 : SA.Idx → EReal) ?_
  funext a
  apply Fin.ext
  match a with
  | ⟨0, _⟩ => show win1_0.index t (0 : Fin 2) * 400 + 1 * p.val = r.val; omega
  | ⟨1, _⟩ => show win1_0.index t (1 : Fin 2) * 10000 + 1 * k.val = k.val; omega

/-- The tall operand's block at any point is the whole operand. -/
theorem blockW (c : Dev nD) (t : Fin cfg1.N) (k : Fin 10000) (q : Fin 128) :
    iblk1 V c 1 t (ix2 k q) = (V c main_v1 : SX.Idx → EReal) (ix2 k q) := by
  obtain ⟨-, -, e2, e3, -⟩ := idx_facts t
  unfold iblk1
  show (V c main_v1 : SX.Idx → EReal) (((cfg1.win 1).blk t).view.emb (ix2 k q)) = _
  refine congrArg (V c main_v1 : SX.Idx → EReal) ?_
  funext a
  apply Fin.ext
  match a with
  | ⟨0, _⟩ => show win1_1.index t (0 : Fin 2) * 10000 + 1 * k.val = k.val; omega
  | ⟨1, _⟩ => show win1_1.index t (1 : Fin 2) * 128 + 1 * q.val = q.val; omega

/-- What point t writes back is block t of A · w of the entry arrays. -/
theorem flushed_eq (c : Dev nD) (t : Fin cfg1.N) :
    (dat1 V c).flushed 2 t
      = ((cfg1.win 2).blk t).view.read (Elt Ideal) (hop (V c main_arg1) (V c main_v1)) := by
  show (cfg1.win 2).cut (grid1.coords t) ((dat1 V c).after 2 t) = _
  rw [after1_2]
  unfold out1_2
  rw [View.canon_unit_zero hz]
  simp only [View.ld_unit_zero (S := S400x10000) hz, View.ld_unit_zero (S := S10000x128) hz]
  obtain ⟨-, -, -, -, e4, e5⟩ := idx_facts t
  funext j
  refine (Body.pass2_at _ _ _).trans ?_
  show _ = hop (V c main_arg1) (V c main_v1) (((cfg1.win 2).blk t).view.emb j)
  have r0 : ((((cfg1.win 2).blk t).view.emb j) 0).val = t.val * 400 + (j 0).val := by
    show win1_2.index t (0 : Fin 2) * 400 + 1 * (j 0).val = _; omega
  have r1 : ((((cfg1.win 2).blk t).view.emb j) 1).val = (j 1).val := by
    show win1_2.index t (1 : Fin 2) * 128 + 1 * (j 1).val = _; omega
  refine Eq.trans ?_ (hop_at _ _ _).symm
  refine Finset.sum_congr rfl fun k _ => congrArg₂ (· * ·) ?_ ?_
  · exact blockA V c t _ k _ r0
  · refine (blockW V c t k _).trans (congrArg (V c main_v1 : SX.Idx → EReal) ?_)
    funext a
    apply Fin.ext
    match a with
    | ⟨0, _⟩ => rfl
    | ⟨1, _⟩ => exact r1.symm

/-- An index of the output array is in point t's block iff each coordinate is in the block's range. -/
theorem mem_blk (t : Fin cfg1.N) (i : S10000x128.Idx) :
    i ∈ ((cfg1.win 2).blk t).view.set ↔ ∀ a : Fin 2, win1_2.index t a * S400x128.size a ≤ (i a).val
      ∧ (i a).val < win1_2.index t a * S400x128.size a + S400x128.size a := by
  show i ∈ ((View.whole main_v2).slice (win1_2.rect t)).set ↔ _
  rw [View.set_slice_whole, Rect.mem_set_unit]
  exact Iff.rfl

/-- Every row lies in some point's block: row r in block r / 400. -/
theorem cover (i : S10000x128.Idx) :
    ∃ t : Fin cfg1.N, (cfg1.win 2).flush t = true ∧ i ∈ ((cfg1.win 2).blk t).view.set := by
  have hi0 : (i 0).val < 10000 := (i 0).isLt
  have hi1 : (i 1).val < 128 := (i 1).isLt
  obtain ⟨t, ht⟩ : ∃ t : Fin cfg1.N, t.val = (i 0).val / 400 :=
    ⟨⟨(i 0).val / 400, by show _ < grid1.N; rw [N_1]; omega⟩, rfl⟩
  obtain ⟨-, -, -, -, e4, e5⟩ := idx_facts t
  refine ⟨t, flush1_2 t, ?_⟩
  rw [mem_blk]
  intro a
  match a with
  | ⟨0, _⟩ =>
    show win1_2.index t (0 : Fin 2) * 400 ≤ (i 0).val ∧ (i 0).val < win1_2.index t (0 : Fin 2) * 400 + 400
    omega
  | ⟨1, _⟩ =>
    show win1_2.index t (1 : Fin 2) * 128 ≤ (i 1).val ∧ (i 1).val < win1_2.index t (1 : Fin 2) * 128 + 128
    omega

/-- The output array after the pass: A · w of the arrays found on entry. -/
theorem final (c : Dev nD) :
    (dat1 V c).arrAt 2 cfg1.N = hop (V c main_arg1) (V c main_v1) :=
  (dat1 V c).arrAt_eq_of_cover 2 (hop (V c main_arg1) (V c main_v1))
    (fun t _ => flushed_eq V c t) cover

end Cert.KernelIdeal.Region1

end
-- ==== Proof.KernelRun.lean ====
/-
  The kernel program's run, with its result named.

  The program converts x to the narrower float format on the host (over the extended reals that changes nothing), runs
  the first pass on (A, that copy, x) and the second pass on (A, the first pass's output). Following the arrays through:

      the first pass is entered with A, x and a copy equal to x, so its output ends as  y = A · x + x;
      the second pass is entered with the same A and with y, so its output ends as      A · y = A · (A · x + x);

  neither pass writes A or x. The run itself is the library's theorem for a program of several kernel launches, over
  the proof data of the two passes; what is read from the final state here is the result array beside the arguments.
-/
import proofs.«117549_g16604343566779_cont_sun_m_776_4_alg».proof.Proof.Gen.KernelIdeal.Frame
import proofs.«117549_g16604343566779_cont_sun_m_776_4_alg».proof.Proof.Region0
import proofs.«117549_g16604343566779_cont_sun_m_776_4_alg».proof.Proof.Region1
import Idealize.ShloMosaic.Lib.StableHlo.Run

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx Cert.Aggr

local notation "𝕄" => MT nD τ sig Unit (Elt Ideal) ℕ (UR sig nD τ) ℕ

variable (m : (ℓ : Loc nD τ sig) → Buf (Elt Ideal) ℓ) (ρ : Dev nD → PrngReg)

/-! ## The arrays the first pass finds -/

/-- x is as launched: the host's one operation writes another buffer. -/
theorem V1_x (c : Dev nD) : V1 m ρ c main_arg0 = m ((c : Thread nD τ).loc main_arg0) := by
  show StableHlo.after hostOps0 (W0 m ρ c) (Proc.devRef .tc main_arg0) = _
  after_results

/-- A is as launched. -/
theorem V1_A (c : Dev nD) : V1 m ρ c main_arg1 = m ((c : Thread nD τ).loc main_arg1) := by
  show StableHlo.after hostOps0 (W0 m ρ c) (Proc.devRef .tc main_arg1) = _
  after_results

/-- The narrowed copy of x is x: a change of float format is the identity on extended reals. -/
theorem V1_copy (c : Dev nD) :
    (V1 m ρ c main_v0 : SX.Idx → EReal) = (m ((c : Thread nD τ).loc main_arg0) : SX.Idx → EReal) := by
  show (StableHlo.after hostOps0 (W0 m ρ c) (Proc.devRef .tc main_v0) : SX.Idx → EReal) = _
  after_results
  rfl

/-! ## The arrays the second pass finds -/

/-- The first pass's output is y = A · x + x. -/
theorem V2_y (c : Dev nD) :
    (V2 m ρ c main_v1 : SX.Idx → EReal)
      = mix (m ((c : Thread nD τ).loc main_arg1)) (m ((c : Thread nD τ).loc main_arg0)) (m ((c : Thread nD τ).loc main_arg0)) := by
  refine (W2_arr m ρ c 3).trans ?_
  rw [Region0.final (V1 m ρ) c, V1_A m ρ c, V1_copy m ρ c, V1_x m ρ c]

/-- A is still as launched: the first pass only reads it. -/
theorem V2_A (c : Dev nD) : V2 m ρ c main_arg1 = m ((c : Thread nD τ).loc main_arg1) :=
  ((W2_arr m ρ c 0).trans (((dat0 (V1 m ρ) c).arrAt_in 0 rfl _).trans (A_eq0 (V1 m ρ) c 0))).trans (V1_A m ρ c)

/-! ## The result -/

/-- The second pass's output is A · y = A · (A · x + x). -/
theorem result_eq (c : Dev nD) :
    (W3 m ρ c (Proc.devRef .tc main_v2) : SX.Idx → EReal)
      = twoHops (m ((c : Thread nD τ).loc main_arg1)) (m ((c : Thread nD τ).loc main_arg0)) := by
  refine (W3_arr m ρ c 2).trans ?_
  rw [Region1.final (V2 m ρ) c, V2_A m ρ c, V2_y m ρ c]
  rfl

/-! ## The run -/

set_option backward.isDefEq.respectTransparency.types false in
/-- Every weakly fair execution of the kernel program terminates, nothing faulting, with the result array at
    A · (A · x + x) of the launch contents and both arguments as launched. -/
theorem run : θ_run defs (onTc (τ := τ) (main (F := Ideal))) ⟨m, fun _ => 0, ρ⟩ (fun r => ∀ c : Dev nD,
      r.2.mem ((c.tc : Thread nD τ).loc main_v2)
        = twoHops (m ((c.tc : Thread nD τ).loc main_arg1)) (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨(h c _ (mem_uc main_v2 (by decide))).trans (result_eq m ρ c),
       (h c _ (mem_uc main_arg0 (by decide))).trans (W3_main_arg0 m ρ c),
       (h c _ (mem_uc main_arg1 (by decide))).trans (W3_main_arg1 m ρ c)⟩)

end Cert.KernelIdeal.RunValue

end
-- ==== Proof.lean ====
/-
  The certificate: a two-pass kernel for A · (A · x + x) against the reference that computes it on the host.

  A is 10000 × 10000, x is 10000 × 128. The kernel streams A through the matrix unit twice, 400 rows at a time: the
  first pass writes y = A · x + x, the second writes A · y. The reference forms A · x, adds x, and multiplies by A.
  Over the extended reals a change of float format is the identity and a matrix product into a zero accumulator is the
  plain sum Σ_k of products, so both programs end with the same term, entry by entry,

      out[r, q] = Σ_k A[r, k] · ((Σ_j A[k, j] · x[j, q]) + x[k, q]),

  with no law of arithmetic between them: the precondition (finite inputs) is never opened.

  The three frame claims are the generated frame runs (the reference's is its generated run with the result dropped);
  the idealization rewrote nothing, so there is nothing to preserve; the value claim puts the kernel program's run
  (its two passes chained) beside the reference's run, both at the one specification term.
-/
import proofs.«117549_g16604343566779_cont_sun_m_776_4_alg».proof.Defs
import proofs.«117549_g16604343566779_cont_sun_m_776_4_alg».proof.Proof.Gen.Kernel
import proofs.«117549_g16604343566779_cont_sun_m_776_4_alg».proof.Proof.Gen.Kernel.Frame
import proofs.«117549_g16604343566779_cont_sun_m_776_4_alg».proof.Proof.Gen.KernelIdeal
import proofs.«117549_g16604343566779_cont_sun_m_776_4_alg».proof.Proof.Gen.KernelIdeal.Frame
import proofs.«117549_g16604343566779_cont_sun_m_776_4_alg».proof.Proof.Gen.ReferenceIdeal
import proofs.«117549_g16604343566779_cont_sun_m_776_4_alg».proof.Proof.Gen.ReferenceIdeal.Run
import proofs.«117549_g16604343566779_cont_sun_m_776_4_alg».proof.Proof.Gen.ReferenceIdeal.Read
import proofs.«117549_g16604343566779_cont_sun_m_776_4_alg».proof.Proof.Gen.Pre_finite_inputs
import proofs.«117549_g16604343566779_cont_sun_m_776_4_alg».proof.Proof.RefValue
import proofs.«117549_g16604343566779_cont_sun_m_776_4_alg».proof.Proof.KernelRun

noncomputable section

namespace Cert.Proof

open Idealize.ShloMosaic Idealize.SL.Sem

/-- The kernel program as printed runs and leaves A and x as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves A and x as launched: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization is the program's own text read over the extended reals: no rewrite to account for. -/
theorem preserves : Cert.preserves_Kernel_KernelIdeal := trivial

/-- From memories that agree on A and x, both programs end with A · (A · x + x) in the result array. -/
theorem algebraic : Cert.algebraic_KernelIdeal_ReferenceIdeal := by
  intro m ρ m' ρ' _ hagree
  refine ⟨fun c => Cert.Aggr.twoHops (m ((c.tc : Thread Cert.KernelIdeal.nD Cert.KernelIdeal.τ).loc Cert.KernelIdeal.main_arg1))
      (m ((c.tc : Thread Cert.KernelIdeal.nD Cert.KernelIdeal.τ).loc Cert.KernelIdeal.main_arg0)),
    Cert.KernelIdeal.RunValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2, Cert.ReferenceIdeal.Read.val_main_v2_eq]
  exact Cert.ReferenceIdeal.RefValue.ref_eq _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
